-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4x256x512 : Shape := ⟨4, ![64, 4, 256, 512]⟩
abbrev S_ : Shape := ⟨0, ![]⟩

class Facts : Prop where
  bcast_S_S64x4x256x512 : S_.BroadcastsInDim S64x4x256x512 (![] : Fin 0 → Fin S64x4x256x512.rank)
  reducesTo_S64x4x256x512_S_d0_1_2_3 : S64x4x256x512.ReducesTo [0, 1, 2, 3] S_
  h_S_ : 0 < S_.numel

variable [Facts]

def fn_part1 {F : FTy → Type} [FloatOps F] (main_v13 : IVec S_ 1) (main_v16 : IVec S64x4x256x512 1) : IVec S_ 1 :=
  let main_c_5 : IVec S_ 1 := constantI S_ 1 1#1
  let main_v17 : IVec S_ 1 := (fun x v => Host.reduce IntOp.andi x v reducesTo_S64x4x256x512_S_d0_1_2_3 h_S_) main_v16 main_c_5
  let main_v18 : IVec S_ 1 := andi main_v13 main_v17
  main_v18

def fn {F : FTy → Type} [FloatOps F] (main_arg0 : FVec F S64x4x256x512 .f32) (main_arg1 : FVec F S64x4x256x512 .f32) (main_arg2 : FVec F S64x4x256x512 .f32) (main_arg3 : FVec F S64x4x256x512 .f32) : IVec S_ 1 :=
  let main_v0 : FVec F S64x4x256x512 .f32 := Host.absf main_arg0
  let main_cst : FVec F S_ .f32 := constant S_ .f32 0x7F800000#32
  let main_v1 : FVec F S64x4x256x512 .f32 := broadcastInDim S64x4x256x512 ![] bcast_S_S64x4x256x512 main_cst
  let main_v2 : IVec S64x4x256x512 1 := cmpf .olt main_v0 main_v1
  let main_c : IVec S_ 1 := constantI S_ 1 1#1
  let main_v3 : IVec S_ 1 := (fun x v => Host.reduce IntOp.andi x v reducesTo_S64x4x256x512_S_d0_1_2_3 h_S_) main_v2 main_c
  let main_v4 : FVec F S64x4x256x512 .f32 := Host.absf main_arg1
  let main_cst_0 : FVec F S_ .f32 := constant S_ .f32 0x7F800000#32
  let main_v5 : FVec F S64x4x256x512 .f32 := broadcastInDim S64x4x256x512 ![] bcast_S_S64x4x256x512 main_cst_0
  let main_v6 : IVec S64x4x256x512 1 := cmpf .olt main_v4 main_v5
  let main_c_1 : IVec S_ 1 := constantI S_ 1 1#1
  let main_v7 : IVec S_ 1 := (fun x v => Host.reduce IntOp.andi x v reducesTo_S64x4x256x512_S_d0_1_2_3 h_S_) main_v6 main_c_1
  let main_v8 : IVec S_ 1 := andi main_v3 main_v7
  let main_v9 : FVec F S64x4x256x512 .f32 := Host.absf main_arg2
  let main_cst_2 : FVec F S_ .f32 := constant S_ .f32 0x7F800000#32
  let main_v10 : FVec F S64x4x256x512 .f32 := broadcastInDim S64x4x256x512 ![] bcast_S_S64x4x256x512 main_cst_2
  let main_v11 : IVec S64x4x256x512 1 := cmpf .olt main_v9 main_v10
  let main_c_3 : IVec S_ 1 := constantI S_ 1 1#1
  let main_v12 : IVec S_ 1 := (fun x v => Host.reduce IntOp.andi x v reducesTo_S64x4x256x512_S_d0_1_2_3 h_S_) main_v11 main_c_3
  let main_v13 : IVec S_ 1 := andi main_v8 main_v12
  let main_v14 : FVec F S64x4x256x512 .f32 := Host.absf main_arg3
  let main_cst_4 : FVec F S_ .f32 := constant S_ .f32 0x7F800000#32
  let main_v15 : FVec F S64x4x256x512 .f32 := broadcastInDim S64x4x256x512 ![] bcast_S_S64x4x256x512 main_cst_4
  let main_v16 : IVec S64x4x256x512 1 := cmpf .olt main_v14 main_v15
  fn_part1 (F := F) main_v13 main_v16
-- ==== Kernel.lean ====
abbrev S64x4x256x512 : Shape := ⟨4, ![64, 4, 256, 512]⟩
abbrev S65536x512 : Shape := ⟨2, ![65536, 512]⟩
abbrev S16x128 : Shape := ⟨2, ![16, 128]⟩
abbrev S2048x512 : Shape := ⟨2, ![2048, 512]⟩
abbrev S8x128 : Shape := ⟨2, ![8, 128]⟩
abbrev S2048 : Shape := ⟨1, ![2048]⟩
abbrev S2048x1 : Shape := ⟨2, ![2048, 1]⟩
abbrev S1 : Shape := ⟨1, ![1]⟩
abbrev S1x1 : Shape := ⟨2, ![1, 1]⟩
abbrev S_ : Shape := ⟨0, ![]⟩

abbrev nBuf : Space → Nat
  | .hbm => 11
  | .vmem => 7
  | .smem => 0
  | _ => 0

abbrev bufTy : (tb : Table) → Fin (tcTables nBuf tb) → BufTy
  | .hbm, ⟨0, _⟩ => ⟨S64x4x256x512, .f32⟩
  | .hbm, ⟨1, _⟩ => ⟨S64x4x256x512, .f32⟩
  | .hbm, ⟨2, _⟩ => ⟨S64x4x256x512, .f32⟩
  | .hbm, ⟨3, _⟩ => ⟨S64x4x256x512, .f32⟩
  | .hbm, ⟨4, _⟩ => ⟨S65536x512, .f32⟩
  | .hbm, ⟨5, _⟩ => ⟨S65536x512, .f32⟩
  | .hbm, ⟨6, _⟩ => ⟨S16x128, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | _, _ => ⟨S64x4x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v43 : BitVec 1 := Scalar.cmpi .eq arg1 c15_i32
  let v44 : BitVec 32 := Scalar.extui v43
  let c0_i32_14 : BitVec 32 := 0#32
  let v45 : BitVec 1 := Scalar.cmpi .ne v44 c0_i32_14
  v45

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S64x4x256x512_S65536x512 : S64x4x256x512.ShapeCasts S65536x512
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  reduces_S2048x512_S2048 : S2048x512.Reduces [1] S2048
  shapeCasts_S2048_S2048x1 : S2048.ShapeCasts S2048x1
  reduces_S2048x1_S1 : S2048x1.Reduces [0] S1
  shapeCasts_S1_S1x1 : S1.ShapeCasts S1x1
  iota_S8x128_d0_w32 : S8x128.Iotas .tc 32 [0]
  iota_S8x128_d1_w32 : S8x128.Iotas .tc 32 [1]
  shapeCasts_S1x1_S1x1 : S1x1.ShapeCasts S1x1
  broadcasts_S1x1_S8x128 : S1x1.Broadcasts S8x128
  reducesTo_S16x128_S_d0_1 : S16x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S65536x512.size a
  hwx0_1 : ∀ i : grid0.Coords, EltTy.bits .f32 = 32 ∨ (Rect.block (s := S65536x512) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x4x256x512 : Shape := ⟨4, ![64, 4, 256, 512]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S64x4x256x512, .f32⟩
  | .hbm, ⟨1, _⟩ => ⟨S64x4x256x512, .f32⟩
  | .hbm, ⟨2, _⟩ => ⟨S64x4x256x512, .f32⟩
  | .hbm, ⟨3, _⟩ => ⟨S64x4x256x512, .f32⟩
  | .hbm, ⟨4, _⟩ => ⟨S_, .f32⟩
  | .hbm, ⟨5, _⟩ => ⟨S64x4x256x512, .f32⟩
  | .hbm, ⟨6, _⟩ => ⟨S64x4x256x512, .f32⟩
  | .hbm, ⟨7, _⟩ => ⟨S64x4x256x512, .f32⟩
  | .hbm, ⟨8, _⟩ => ⟨S64x4x256x512, .f32⟩
  | .hbm, ⟨9, _⟩ => ⟨S64x4x256x512, .i1⟩
  | .hbm, ⟨10, _⟩ => ⟨S64x4x256x512, .f32⟩
  | .hbm, ⟨11, _⟩ => ⟨S64x4x256x512, .f32⟩
  | .hbm, ⟨12, _⟩ => ⟨S64x4x256x512, .f32⟩
  | .hbm, ⟨13, _⟩ => ⟨S64x4x256x512, .f32⟩
  | .hbm, ⟨14, _⟩ => ⟨S64x4x256x512, .f32⟩
  | .hbm, ⟨15, _⟩ => ⟨S64x4x256x512, .f32⟩
  | .hbm, ⟨16, _⟩ => ⟨S64x4x256x512, .f32⟩
  | .hbm, ⟨17, _⟩ => ⟨S64x4x256x512, .f32⟩
  | .hbm, ⟨18, _⟩ => ⟨S64x4x256x512, .f32⟩
  | .hbm, ⟨19, _⟩ => ⟨S64x4x256x512, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | _, _ => ⟨S64x4x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_cst : Ref sig .tc := ⟨.hbm, 20, rfl⟩
abbrev main_v3 : Ref sig .tc := ⟨.hbm, 21, rfl⟩
abbrev main_cst_0 : Ref sig .tc := ⟨.hbm, 22, rfl⟩
abbrev main_v4 : Ref sig .tc := ⟨.hbm, 23, rfl⟩

abbrev nD : Nat := 1
abbrev τ : Topo := Topo.v7x

variable {F : FTy → Type} [FloatOps F]

class Facts₀ : Prop where
  bcast_S_S64x4x256x512 : S_.BroadcastsInDim S64x4x256x512 (![] : Fin 0 → Fin S64x4x256x512.rank)
  reducesTo_S64x4x256x512_S_d0_1_2_3 : S64x4x256x512.ReducesTo [0, 1, 2, 3] S_
  h_S_ : 0 < S_.numel

variable [Facts₀]

class Facts : Prop extends Facts₀ where

variable [Facts]
-- ==== Proof.Cases.lean ====
/-
  What each of the body's three cases leaves behind, as the body's own arithmetic.

  The body has three control cases along a core's sixteen steps.  At the first step the 8 x 128 accumulator is
  overwritten with zeros and then receives  zeros + (this block's contribution);  at a middle step it receives
  (what the step before left) + (this block's contribution);  at the last step it does the same and is then copied
  into the output block.  Each lemma reads the case's stores back: the last store to a buffer decides its contents,
  a load that follows a store of the whole buffer returns what was stored, and a load of a whole buffer nobody has
  stored into returns what the buffer held.  Nothing here depends on the float instance.
-/
import proofs.«110235_j23536420782513_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Cases

open Cert.KernelIdeal Cert.KernelIdeal.Gen

variable {F : FTy → Type} [FloatOps F]

/-- Offsets (0, 0): the rectangle every load and store of the body goes through is the whole buffer. -/
theorem hz : (![0, 0] : Fin 2 → Nat) = fun _ => 0 := funext fun a => by fin_cases a <;> rfl

/-- First step of a core: the accumulator ends at the step applied to the zeros just stored. -/
theorem scratch_first (c : Dev nD) (i : grid0.Coords) (a2 : Memref sig .tc .vmem S2048x512 .f32) (h2 : a2.IsWhole)
    (a3 : Memref sig .tc .vmem S2048x512 .f32) (h3 : a3.IsWhole) (a4 : Memref sig .tc .vmem S8x128 .f32) (h4 : a4.IsWhole)
    (a5 : Memref sig .tc .vmem S8x128 .f32) (h5 : a5.IsWhole) (hc0 : cond0_0 i) (hc1 : ¬cond0_1 i)
    (x0 x1 : Vec F S2048x512 .f32) :
    sout0_A_0 c i a2 h2 a3 h3 a4 h4 a5 h5 hc0 hc1 x0 x1 = k0_pay1 (k0_pay3 x0 x1 (k0_pay2 (F := F))) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S8x128) hz, View.readCov_unit_zero (S := S8x128) _ hz]
  simp only [View.readAt_eq_ld, h2.read_unread, h3.read_unread, View.ld_unit_zero (S := S2048x512) hz]

/-- Middle step: the accumulator ends at the step applied to what it held. -/
theorem scratch_middle (c : Dev nD) (i : grid0.Coords) (a2 : Memref sig .tc .vmem S2048x512 .f32) (h2 : a2.IsWhole)
    (a3 : Memref sig .tc .vmem S2048x512 .f32) (h3 : a3.IsWhole) (a4 : Memref sig .tc .vmem S8x128 .f32) (h4 : a4.IsWhole)
    (a5 : Memref sig .tc .vmem S8x128 .f32) (h5 : a5.IsWhole) (hc0 : ¬cond0_0 i) (hc1 : ¬cond0_1 i)
    (x0 x1 : Vec F S2048x512 .f32) (xs0 : Vec F S8x128 .f32) :
    sout0_B_0 c i a2 h2 a3 h3 a4 h4 a5 h5 hc0 hc1 x0 x1 xs0 = k0_pay1 (k0_pay3 x0 x1 xs0) := by
  unfold sout0_B_0
  rw [View.read_writes_eq_canon _ _ _ (scover0_B_0 c i a2 h2 a3 h3 a4 h4 a5 h5 hc0 hc1 x0 x1 xs0)]
  unfold kernelRun0_B
  dsimp only
  sl_unfold_words
  rw [View.canon_unit_zero hz]
  simp only [View.readAt_eq_ld, h2.read_unread, h3.read_unread, h5.read_unread, View.ld_unit_zero (S := S2048x512) hz,
    View.ld_unit_zero (S := S8x128) hz]

/-- Last step: the accumulator ends at the step applied to what it held, -/
theorem scratch_last (c : Dev nD) (i : grid0.Coords) (a2 : Memref sig .tc .vmem S2048x512 .f32) (h2 : a2.IsWhole)
    (a3 : Memref sig .tc .vmem S2048x512 .f32) (h3 : a3.IsWhole) (a4 : Memref sig .tc .vmem S8x128 .f32) (h4 : a4.IsWhole)
    (a5 : Memref sig .tc .vmem S8x128 .f32) (h5 : a5.IsWhole) (hc0 : ¬cond0_0 i) (hc1 : cond0_1 i)
    (x0 x1 : Vec F S2048x512 .f32) (xs0 : Vec F S8x128 .f32) :
    sout0_C_0 c i a2 h2 a3 h3 a4 h4 a5 h5 hc0 hc1 x0 x1 xs0 = k0_pay1 (k0_pay3 x0 x1 xs0) := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz]
  simp only [View.readAt_eq_ld, h2.read_unread, h3.read_unread, h5.read_unread, View.ld_unit_zero (S := S2048x512) hz,
    View.ld_unit_zero (S := S8x128) hz]

/-- and the output block is a copy of it. -/
theorem out_last (c : Dev nD) (i : grid0.Coords) (a2 : Memref sig .tc .vmem S2048x512 .f32) (h2 : a2.IsWhole)
    (a3 : Memref sig .tc .vmem S2048x512 .f32) (h3 : a3.IsWhole) (a4 : Memref sig .tc .vmem S8x128 .f32) (h4 : a4.IsWhole)
    (a5 : Memref sig .tc .vmem S8x128 .f32) (h5 : a5.IsWhole) (hc0 : ¬cond0_0 i) (hc1 : cond0_1 i)
    (x0 x1 : Vec F S2048x512 .f32) (xs0 : Vec F S8x128 .f32) :
    out0_C_2 c i a2 h2 a3 h3 a4 h4 a5 h5 hc0 hc1 x0 x1 xs0 = k0_pay1 (k0_pay3 x0 x1 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz, View.readCov_unit_zero (S := S8x128) _ hz]
  simp only [View.readAt_eq_ld, h2.read_unread, h3.read_unread, h5.read_unread, View.ld_unit_zero (S := S2048x512) hz,
    View.ld_unit_zero (S := S8x128) hz]

end Cert.KernelIdeal.Cases

end
-- ==== Proof.Spec.lean ====
/-
  The mathematics both programs compute, over the extended reals.

  Per element, with x a logit and y a target, the loss is  softplus(x) - y * x,  where softplus is spelt
  max(x, 0) + log1p(exp(-|x|))  behind a guard "x - 0 differs from itself" that can never fire on the extended reals
  (there is no NaN there).  The result of the whole program is the sum of that loss over all 65536 x 512 elements,
  started from the zero word, divided by 32768.

  The kernel reaches the sum block by block: 32 blocks of 2048 rows; each block's total is added into entry (0, 0) of
  an 8 x 128 accumulator that is reset at blocks 0 and 16 and copied out after blocks 15 and 31; the two copies fill a
  16 x 128 array, whose entries are then summed.  This module states those pieces as plain functions and proves the
  one identity that matters: the entries of that 16 x 128 array add up to the sum over the whole array.  Only
  commutativity and associativity of + on the extended reals are used, and 0 + a = a, so no finiteness is needed.
-/
import Idealize.ShloMosaic.PureOps.Ideal
import Idealize.ShloMosaic.PureOps.Ideal.Laws
import Idealize.ShloMosaic.Lib.ValueIdx

noncomputable section

open scoped BigOperators

namespace Cert.BceSpec

open Idealize.ShloMosaic Idealize.ShloMosaic.ValueIdx

/-- Index types of the literal shapes that occur. -/
abbrev IdxArr : Type := (⟨2, ![65536, 512]⟩ : Shape).Idx
abbrev IdxBlk : Type := (⟨2, ![2048, 512]⟩ : Shape).Idx
abbrev IdxAcc : Type := (⟨2, ![8, 128]⟩ : Shape).Idx
abbrev IdxOut : Type := (⟨2, ![16, 128]⟩ : Shape).Idx

/-- The f32 zero word as an extended real; it is the number 0. -/
abbrev z : EReal := Ideal.ofBits .f32 0x00000000#32

theorem z_eq : z = 0 := Ideal.ofBits_zero_f32

/-! ## One element -/

/-- The loss of one element, in the kernel's spelling: the guard compares x - 0 with itself, the exponent is
    0 - |x - 0|. -/
def g (x y : EReal) : EReal :=
  Scalar.select (Ideal.cmp .one (x - z) (x - z)) (x + z)
    (max x z + Ideal.log1p (Ideal.exp (z - max (x - z) (-(x - z))))) - y * x

/-- The host's spelling — the unordered comparison, which on the extended reals is the same test, and a negation
    in place of the subtraction from zero — is the same number: 0 - a = -a. -/
theorem g_host (x y : EReal) :
    Scalar.select (Ideal.cmp .une (x - z) (x - z)) (x + z)
      (max x z + Ideal.log1p (Ideal.exp (-(max (x - z) (-(x - z)))))) - y * x = g x y := by
  unfold g
  rw [show z - max (x - z) (-(x - z)) = -(max (x - z) (-(x - z))) from by rw [z_eq, zero_sub]]
  rfl

/-! ## One block, one accumulation step -/

/-- The total loss of one 2048 x 512 block. -/
def blockTotal (x0 x1 : IdxBlk → EReal) : EReal := ∑ y, g (x0 y) (x1 y)

/-- One accumulation step: the block's total is added at entry (0, 0), the zero word everywhere else. -/
def bump (τ : EReal) (acc : IdxAcc → EReal) : IdxAcc → EReal :=
  fun y => acc y + (if (y 0).val = 0 ∧ (y 1).val = 0 then τ else z)

/-- The accumulator after a reset: the zero word everywhere. -/
def zeroAcc : IdxAcc → EReal := fun _ => z

theorem sum_zeroAcc : ∑ y, zeroAcc y = 0 := by
  unfold zeroAcc; rw [z_eq]; exact Finset.sum_const_zero

/-- A step adds exactly the block's total to the sum of the accumulator's entries. -/
theorem sum_bump (τ : EReal) (acc : IdxAcc → EReal) : ∑ y, bump τ acc y = (∑ y, acc y) + τ := by
  unfold bump
  rw [Finset.sum_add_distrib]
  congr 1
  have e : ∀ y : IdxAcc, (if (y 0).val = 0 ∧ (y 1).val = 0 then τ else z)
      = if y = ix2 (0 : Fin 8) (0 : Fin 128) then τ else 0 := by
    intro y
    rw [z_eq]
    by_cases h : (y 0).val = 0 ∧ (y 1).val = 0
    · rw [if_pos h, if_pos]
      rw [eq_ix2 y]
      exact congrArg₂ ix2 (Fin.ext h.1) (Fin.ext h.2)
    · rw [if_neg h, if_neg]
      intro hy
      exact h (by rw [hy]; exact ⟨rfl, rfl⟩)
  rw [Finset.sum_congr rfl fun y _ => e y, Finset.sum_ite_eq' Finset.univ (ix2 (0 : Fin 8) (0 : Fin 128)) fun _ => τ]
  exact if_pos (Finset.mem_univ _)

/-! ## The accumulator across the 32 blocks -/

/-- The accumulator after block n, given every block's total: reset before blocks 0, 16, …, one step per block. -/
def chain (T : ℕ → EReal) : ℕ → IdxAcc → EReal
  | 0 => bump (T 0) zeroAcc
  | n + 1 => bump (T (n + 1)) (if (n + 1) % 16 = 0 then zeroAcc else chain T n)

theorem chain_reset (T : ℕ → EReal) (n : ℕ) (h : n % 16 = 0) : chain T n = bump (T n) zeroAcc := by
  cases n with
  | zero => rfl
  | succ n => show bump _ (if (n + 1) % 16 = 0 then zeroAcc else chain T n) = _; rw [if_pos h]

theorem chain_step (T : ℕ → EReal) (n : ℕ) (h : ¬n % 16 = 0) : chain T n = bump (T n) (chain T (n - 1)) := by
  cases n with
  | zero => exact absurd (Nat.zero_mod _) h
  | succ n => show bump _ (if (n + 1) % 16 = 0 then zeroAcc else chain T n) = _; rw [if_neg h]; rfl

/-- The entries of the accumulator after block 16 q + r add up to the totals of blocks 16 q, …, 16 q + r. -/
theorem sum_chain (T : ℕ → EReal) (q : ℕ) : ∀ r : ℕ, r < 16 →
    ∑ y, chain T (16 * q + r) y = ∑ k ∈ Finset.range (r + 1), T (16 * q + k)
  | 0, _ => by
    rw [chain_reset T _ (by omega), sum_bump, sum_zeroAcc, zero_add, Finset.sum_range_one]
  | r + 1, hr => by
    rw [chain_step T _ (by omega), sum_bump, show 16 * q + (r + 1) - 1 = 16 * q + r from by omega,
      sum_chain T q r (by omega), Finset.sum_range_succ _ (r + 1)]

/-! ## The 16 x 128 array the two copies fill, and its sum -/

/-- Rows 8 p … 8 p + 7 hold the accumulator after block 16 p + 15. -/
def outArr (T : ℕ → EReal) : IdxOut → EReal :=
  fun i => chain T (16 * ((i 0).val / 8) + 15) (ix2 (⟨(i 0).val % 8, Nat.mod_lt _ (by decide)⟩ : Fin 8) (i 1))

/-- A sum over Fin (a * b) as a double sum. -/
theorem sum_fin_mul {M : Type*} [AddCommMonoid M] (a b : ℕ) (h : Fin (a * b) → M) :
    ∑ R, h R = ∑ p : Fin a, ∑ r : Fin b, h (finProdFinEquiv (p, r)) := by
  rw [← Equiv.sum_comp finProdFinEquiv h, Fintype.sum_prod_type]

/-- The entries of the 16 x 128 array add up to the totals of all 32 blocks. -/
theorem sum_outArr (T : ℕ → EReal) : ∑ i, outArr T i = ∑ k ∈ Finset.range 32, T k := by
  rw [sum_idx2, sum_fin_mul 2 8 (fun R : Fin 16 => ∑ b : Fin 128, outArr T (ix2 R b)), Fin.sum_univ_two]
  have e : ∀ p : Fin 2, ∑ r : Fin 8, ∑ b : Fin 128, outArr T (ix2 (finProdFinEquiv (p, r) : Fin 16) b)
      = ∑ y, chain T (16 * p.val + 15) y := by
    intro p
    rw [sum_idx2]
    refine Finset.sum_congr rfl fun r _ => Finset.sum_congr rfl fun b _ => ?_
    unfold outArr
    have hv : ((ix2 (finProdFinEquiv (p, r) : Fin 16) b : IdxOut) 0).val = r.val + 8 * p.val := rfl
    have hr := r.isLt
    congr 1
    · rw [hv]; omega
    · refine congrArg₂ ix2 (Fin.ext ?_) rfl
      show ((ix2 (finProdFinEquiv (p, r) : Fin 16) b : IdxOut) 0).val % 8 = r.val
      rw [hv]; omega
  rw [e 0, e 1, show 16 * (0 : Fin 2).val + 15 = 16 * 0 + 15 from rfl, show 16 * (1 : Fin 2).val + 15 = 16 * 1 + 15 from rfl,
    sum_chain T 0 15 (by omega), sum_chain T 1 15 (by omega), Finset.sum_range_add T 16 16]
  simp only [Nat.mul_zero, Nat.zero_add, Nat.mul_one]

/-! ## The blocks tile the array -/

/-- Row r of block t is row 2048 t + r of the array. -/
def rowOf (t : Fin 32) (r : Fin 2048) : Fin 65536 := ⟨r.val + 2048 * t.val, by omega⟩

/-- Block t of a 65536 x 512 array. -/
def blk (W : IdxArr → EReal) (t : Fin 32) : IdxBlk → EReal := fun y => W (ix2 (rowOf t (y 0)) (y 1))

/-- Summing block by block is summing the array. -/
theorem sum_blocks {M : Type*} [AddCommMonoid M] (Fn : IdxArr → M) :
    ∑ t : Fin 32, ∑ y : IdxBlk, Fn (ix2 (rowOf t (y 0)) (y 1)) = ∑ J, Fn J := by
  rw [sum_idx2 Fn, sum_fin_mul 32 2048 (fun R : Fin 65536 => ∑ l : Fin 512, Fn (ix2 R l))]
  refine Finset.sum_congr rfl fun t _ => ?_
  rw [sum_idx2]
  rfl

/-- The total of block n of the two arrays (0 past the last block). -/
def totals (X Y : IdxArr → EReal) (n : ℕ) : EReal :=
  if h : n < 32 then blockTotal (blk X ⟨n, h⟩) (blk Y ⟨n, h⟩) else 0

/-- THE IDENTITY: the 16 x 128 array's entries add up to the loss summed over the whole array. -/
theorem sum_outArr_totals (X Y : IdxArr → EReal) :
    ∑ i, outArr (totals X Y) i = ∑ J, g (X J) (Y J) := by
  rw [sum_outArr, Finset.sum_range, ← sum_blocks fun J => g (X J) (Y J)]
  refine Finset.sum_congr rfl fun t _ => ?_
  unfold totals
  rw [dif_pos t.isLt]
  rfl

/-! ## The program's result -/

/-- The result, from the loss summed over the whole array: that total added to the zero word, divided by the word
    32768 — as a rank-0 array. -/
def result (S : EReal) : (⟨0, ![]⟩ : Shape).Idx → EReal :=
  fun _ => Ideal.div (z + S) (Ideal.ofBits .f32 0x47000000#32)

end Cert.BceSpec

end
-- ==== Proof.Payload.lean ====
/-
  The body's arithmetic at the extended reals, entry by entry.

  Of one block x0 (logits) and x1 (targets) the body forms the loss elementwise, sums it along the 512 lanes, then
  along the 2048 rows, and spreads the resulting single number over an 8 x 128 vector; a one-hot mask keeps it at
  entry (0, 0) and puts the zero word everywhere else; that vector is added to the accumulator.  Read at an entry,
  this is the spec's accumulation step with the block's total: a lane sum followed by a row sum is the sum over the
  block, because + on the extended reals is commutative and associative.
-/
import proofs.«110235_j23536420782513_2_alg».proof.Proof.Gen.KernelIdeal.Skeleton
import proofs.«110235_j23536420782513_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.Pay

open Cert.KernelIdeal Cert.KernelIdeal.Gen Cert.BceSpec

/-- The mask's two comparisons on coordinates a < 8 and b < 128, as 32-bit words: both hold exactly when a = b = 0. -/
theorem mask_eq : ∀ (a : Fin 8) (b : Fin 128),
    IntOp.andi (IntOp.cmpi .eq (BitVec.ofNat 32 a.val) 0#32) (IntOp.cmpi .eq (BitVec.ofNat 32 b.val) 0#32)
      = if a.val = 0 ∧ b.val = 0 then 1#1 else 0#1 := by decide +kernel

/-- The reset stores the zero word everywhere. -/
theorem pay2_eq : k0_pay2 (F := Ideal) = zeroAcc := by
  unfold k0_pay2
  simp only [shapeCast_self]
  rfl

/-- A rank-1 index set is its one coordinate range. -/
def idxEquiv1 {n : Nat} : (⟨1, ![n]⟩ : Shape).Idx ≃ Fin n where
  toFun i := i 0
  invFun := ix1
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The element vector is the loss, index by index. -/
theorem elt_eq (x0 x1 : FVec Ideal S2048x512 .f32) (y : S2048x512.Idx) :
    (subf
      (select
        (cmpf CmpFPredicate.one (subf x0 (broadcast S2048x512 (FloatOps.ofBits FTy.f32 0#32)))
          (subf x0 (broadcast S2048x512 (FloatOps.ofBits FTy.f32 0#32))))
        (addf x0 (broadcast S2048x512 (FloatOps.ofBits FTy.f32 0#32)))
        (addf (maximumf x0 (broadcast S2048x512 (FloatOps.ofBits FTy.f32 0#32)))
          (log1p
            (exp
              (subf (broadcast S2048x512 (FloatOps.ofBits FTy.f32 0#32))
                (absf (subf x0 (broadcast S2048x512 (FloatOps.ofBits FTy.f32 0#32)))))))))
      (mulf x1 x0) : FVec Ideal S2048x512 .f32) y = g (x0 y) (x1 y) := rfl

/-- Lanes first, then rows, then the 1 x 1 result spread over the accumulator's shape: at every entry, the sum over the block. -/
theorem total_eq (E : FVec Ideal S2048x512 .f32) (hφ : FKind.Formats .f32) (hacc : (0#32 : BitVec 32) = FKind.add.neutral .f32 hφ)
    (a : Fin 8) (b : Fin 128) :
    broadcastTo S8x128
      (shapeCast S1x1
        (multiReduction FKind.add [0] S1
          (shapeCast S2048x1 (multiReduction FKind.add [1] S2048 E (0#32) reduces_S2048x512_S2048 hφ hacc) shapeCasts_S2048_S2048x1)
          (0#32) reduces_S2048x1_S1 hφ hacc)
        shapeCasts_S1_S1x1)
      broadcasts_S1x1_S8x128 (ix2 a b) = ∑ y, E y := by
  unfold broadcastTo shapeCast
  rw [Ideal.multiReduction_add_total _ _ _ (fun d => by fin_cases d; rfl)]
  rw [Equiv.sum_comp (Shape.reshapeEquiv shapeCasts_S2048_S2048x1) (multiReduction FKind.add [1] S2048 E (0#32) reduces_S2048x512_S2048 hφ hacc)]
  rw [sum_idx1, sum_idx2]
  refine Finset.sum_congr rfl fun r _ => ?_
  rw [Ideal.multiReduction_add_single]
  refine Finset.sum_congr rfl fun l _ => congrArg E ?_
  funext d
  match d with
  | ⟨0, _⟩ => rfl
  | ⟨1, _⟩ => rfl

/-- The one-hot mask, read at an entry: set exactly at (0, 0). -/
theorem maskvec_eq (a : Fin 8) (b : Fin 128) :
    (andi (cmpi CmpIPredicate.eq (iota Kind.tc S8x128 32 [0] iota_S8x128_d0_w32) (broadcast S8x128 0#32))
        (cmpi CmpIPredicate.eq (iota Kind.tc S8x128 32 [1] iota_S8x128_d1_w32) (broadcast S8x128 0#32))) (ix2 a b)
      = if a.val = 0 ∧ b.val = 0 then 1#1 else 0#1 := by
  refine Eq.trans ?_ (mask_eq a b)
  show IntOp.andi (IntOp.cmpi .eq (iota Kind.tc S8x128 32 [0] iota_S8x128_d0_w32 (ix2 a b)) 0#32)
      (IntOp.cmpi .eq (iota Kind.tc S8x128 32 [1] iota_S8x128_d1_w32 (ix2 a b)) 0#32) = _
  rw [iota_single_apply, iota_single_apply]

/-- One step of the kernel's accumulation is the spec's: the block's total enters at entry (0, 0) only. -/
theorem pay3_apply (x0 x1 : Vec Ideal S2048x512 .f32) (acc : Vec Ideal S8x128 .f32) (a : Fin 8) (b : Fin 128) :
    k0_pay1 (F := Ideal) (k0_pay3 x0 x1 acc) (ix2 a b) = bump (blockTotal x0 x1) acc (ix2 a b) := by
  unfold k0_pay1 k0_pay3
  simp only [shapeCast_self]
  unfold bump blockTotal
  show acc (ix2 a b) + Scalar.select _ _ _ = acc (ix2 a b) + _
  refine congrArg (fun t => acc (ix2 a b) + t) ?_
  refine (congrArg₂ (fun (mk : BitVec 1) (t : EReal) => Scalar.select mk t (z : EReal)) (maskvec_eq a b) (total_eq _ _ _ a b)).trans ?_
  show Scalar.select (if a.val = 0 ∧ b.val = 0 then 1#1 else 0#1) (∑ y, _) z = if a.val = 0 ∧ b.val = 0 then _ else z
  by_cases h : a.val = 0 ∧ b.val = 0
  · rw [if_pos h, if_pos h, select_one]
    exact Finset.sum_congr rfl fun y _ => elt_eq x0 x1 y
  · rw [if_neg h, if_neg h, select_zero]

/-- The same, as an equation of 8 x 128 vectors. -/
theorem pay3_eq (x0 x1 : Vec Ideal S2048x512 .f32) (acc : Vec Ideal S8x128 .f32) :
    k0_pay1 (F := Ideal) (k0_pay3 x0 x1 acc) = bump (blockTotal x0 x1) acc := by
  funext y
  rw [eq_ix2 y]
  exact pay3_apply x0 x1 acc (y 0) (y 1)

end Cert.KernelIdeal.Pay

end
-- ==== Proof.Running.lean ====
/-
  The accumulator across the grid's 32 points.

  Point t (t = 16 p + k: core p, step k) reads block t of the two reshaped arrays — rows 2048 t … 2048 t + 2047 — and
  applies one accumulation step with that block's total.  Steps 0 and 16 start from the zeros just stored, every other
  step from what the step before left, and steps 15 and 31 also copy the accumulator into the output block.  So after
  point n the accumulator is the spec's chain at n, by induction on the point; at the two copying points the output
  block holds the same.
-/
import proofs.«110235_j23536420782513_2_alg».proof.Proof.Cases
import proofs.«110235_j23536420782513_2_alg».proof.Proof.Payload

noncomputable section

open scoped BigOperators
open Idealize.ShloMosaic Idealize.ShloMosaic.TcCoe Idealize.SL.Sem Idealize.ShloMosaic.ValueIdx
open Idealize.ShloMosaic.Pipeline (Dat)

namespace Cert.KernelIdeal.Running

open Cert.KernelIdeal Cert.KernelIdeal.Gen Cert.BceSpec

variable (m : (ℓ : Loc nD τ sig) → Buf (Elt Ideal) ℓ)

/-- The two 65536 x 512 arrays the region finds: the reshaped logits and targets. -/
abbrev X (c : Dev nD) : IdxArr → EReal := V m c main_v0
abbrev Y (c : Dev nD) : IdxArr → EReal := V m c main_v1

/-- The index maps over the grid: the inputs' block row is the point's number, the output's the core's. -/
theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)

/-- The logits' block at point t is block t of the array. -/
theorem iblk0_eq (c : Dev nD) (t : Fin cfg0.N) (ht : t.val < 32) :
    (iblk m c 0 t : IdxBlk → EReal) = blk (X m c) ⟨t.val, ht⟩ := by
  funext j
  unfold iblk blk
  rw [View.read_apply]
  show V m c main_v0 _ = V m c main_v0 _
  congr 1
  funext a
  apply Fin.ext
  match a with
  | ⟨0, _⟩ => show win0_0.index t 0 * 2048 + 1 * (j 0).val = (j 0).val + 2048 * t.val; rw [(idx0 t).1]; omega
  | ⟨1, _⟩ => show win0_0.index t 1 * 512 + 1 * (j 1).val = (j 1).val; rw [(idx0 t).2]; omega

theorem iblk1_eq (c : Dev nD) (t : Fin cfg0.N) (ht : t.val < 32) :
    (iblk m c 1 t : IdxBlk → EReal) = blk (Y m c) ⟨t.val, ht⟩ := by
  funext j
  unfold iblk blk
  rw [View.read_apply]
  show V m c main_v1 _ = V m c main_v1 _
  congr 1
  funext a
  apply Fin.ext
  match a with
  | ⟨0, _⟩ => show win0_1.index t 0 * 2048 + 1 * (j 0).val = (j 0).val + 2048 * t.val; rw [(idx1 t).1]; omega
  | ⟨1, _⟩ => show win0_1.index t 1 * 512 + 1 * (j 1).val = (j 1).val; rw [(idx1 t).2]; omega

/-- The total of the blocks at point t is the spec's block total number t. -/
theorem total_at (c : Dev nD) (t : Fin cfg0.N) :
    blockTotal (iblk m c 0 t) (iblk m c 1 t) = totals (X m c) (Y m c) t.val := by
  have ht : t.val < 32 := lt_of_lt_of_eq t.isLt (show cfg0.N = 32 from N_0)
  unfold totals
  rw [dif_pos ht]
  exact congrArg₂ blockTotal (iblk0_eq m c t ht) (iblk1_eq m c t ht)

/-- The body's step at point t, over any accumulator contents. -/
theorem step_at (c : Dev nD) (t : Fin cfg0.N) (acc : Vec Ideal S8x128 .f32) :
    k0_pay1 (F := Ideal) (k0_pay3 (iblk m c 0 t) (iblk m c 1 t) acc) = bump (totals (X m c) (Y m c) t.val) acc :=
  (Pay.pay3_eq (iblk m c 0 t) (iblk m c 1 t) acc).trans (congrArg (fun τ => bump τ acc) (total_at m c t))

/-- After point n the accumulator holds the spec's chain: by induction on the point. -/
theorem scratch_eq (c : Dev nD) : ∀ (n : ℕ) (h : n < cfg0.N), (outsAt0 m c n h).2 = chain (totals (X m c) (Y m c)) n
  | 0, h => by
    refine (congrArg Prod.snd (outsAt0_A m c ⟨0, h⟩ (Nat.zero_mod 16) (by show ¬0 % 16 = 15; decide))).trans ?_
    dsimp only
    refine (Cases.scratch_first c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) scM0_0 (Memref.isWhole_whole _) _ _ (iblk m c 0 ⟨0, h⟩) (iblk m c 1 ⟨0, h⟩)).trans ?_
    rw [Pay.pay2_eq]
    exact step_at m c ⟨0, h⟩ zeroAcc
  | n + 1, h => by
    have hN : n + 1 < 32 := lt_of_lt_of_eq h (show cfg0.N = 32 from N_0)
    by_cases h0 : (n + 1) % 16 = 0
    · have h1 : ¬(n + 1) % 16 = 15 := by omega
      refine (congrArg Prod.snd (outsAt0_A m c ⟨n + 1, h⟩ h0 h1)).trans ?_
      dsimp only
      refine (Cases.scratch_first c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) scM0_0 (Memref.isWhole_whole _) _ _ (iblk m c 0 ⟨n + 1, h⟩) (iblk m c 1 ⟨n + 1, h⟩)).trans ?_
      rw [Pay.pay2_eq, chain_reset _ _ h0]
      exact step_at m c ⟨n + 1, h⟩ zeroAcc
    · have ih := scratch_eq c n (Nat.lt_of_succ_lt h)
      by_cases h1 : (n + 1) % 16 = 15
      · refine (congrArg Prod.snd (outsAt0_C m c ⟨n + 1, h⟩ h0 h1)).trans ?_
        dsimp only
        refine (Cases.scratch_last c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) scM0_0 (Memref.isWhole_whole _) _ _ (iblk m c 0 ⟨n + 1, h⟩) (iblk m c 1 ⟨n + 1, h⟩)
          (outsAt0 m c n (Nat.lt_of_succ_lt h)).2).trans ?_
        rw [chain_step _ _ h0, ih]
        exact step_at m c ⟨n + 1, h⟩ _
      · refine (congrArg Prod.snd (outsAt0_B m c ⟨n + 1, h⟩ h0 h1)).trans ?_
        dsimp only
        refine (Cases.scratch_middle c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) scM0_0 (Memref.isWhole_whole _) _ _ (iblk m c 0 ⟨n + 1, h⟩) (iblk m c 1 ⟨n + 1, h⟩)
          (outsAt0 m c n (Nat.lt_of_succ_lt h)).2).trans ?_
        rw [chain_step _ _ h0, ih]
        exact step_at m c ⟨n + 1, h⟩ _

/-- At a point that copies the accumulator out (the last of a core's sixteen), the output block holds the chain too. -/
theorem out_eq (c : Dev nD) (t : Fin cfg0.N) (h1 : t.val % 16 = 15) :
    (outsAt0 m c t.val t.isLt).1 = chain (totals (X m c) (Y m c)) t.val := by
  have h0 : ¬t.val % 16 = 0 := by omega
  have hpos : 0 < t.val := by omega
  refine (congrArg Prod.fst (outsAt0_C m c t h0 h1)).trans ?_
  dsimp only
  refine (Cases.out_last c (grid0.coords t) (ms0_0 t) (hs0_0 t) (ms0_1 t) (hs0_1 t)
    (ms0_2 t) (hs0_2 t) scM0_0 (Memref.isWhole_whole _) _ _ (iblk m c 0 t) (iblk m c 1 t)
    (outsAt0 m c (t.val - 1) (Nat.lt_of_le_of_lt (Nat.sub_le _ _) t.isLt)).2).trans ?_
  rw [chain_step _ _ h0, scratch_eq m c (t.val - 1)]
  exact step_at m c t _

end Cert.KernelIdeal.Running

end
-- ==== Proof.Final.lean ====
/-
  The output array after the region, and the program's result.

  Only the points 15 and 31 write the output window back; what they write is the accumulator's copy, so rows 8 p … 8 p + 7
  of the 16 x 128 array hold the chain after point 16 p + 15, and every row belongs to one of the two blocks.  The host
  then sums that array from the zero word and divides by the word 32768.  The two host reshapes before the region make
  the arrays the region reads the 65536 x 512 re-layings of the first and third arguments.
-/
import proofs.«110235_j23536420782513_2_alg».proof.Proof.Running
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.BceSpec Cert.KernelIdeal.Running

variable (m : (ℓ : Loc nD τ sig) → Buf (Elt Ideal) ℓ) (ρ : Dev nD → PrngReg)

/-- The output's index map over the grid: block row = the core's number, block column 0. -/
theorem idx2 : ∀ t : Fin cfg0.N, win0_2.index t (0 : Fin 2) = t.val / 16 ∧ win0_2.index t (1 : Fin 2) = 0 :=
  (by decide +kernel : ∀ t : Fin grid0.N, win0_2.index t (0 : Fin 2) = t.val / 16 ∧ win0_2.index t (1 : Fin 2) = 0)

/-- What a copying point writes back is its block of the spec's 16 x 128 array. -/
theorem flushed_eq (c : Dev nD) (t : Fin cfg0.N) (hf : (cfg0.win 2).flush t = true) :
    (dats m 0 c).flushed 2 t = ((cfg0.win 2).blk t).view.read (Elt Ideal) (outArr (totals (X m c) (Y m c))) := by
  have h15 : t.val % 16 = 15 := (flush0_2 t).mp hf
  show (cfg0.win 2).cut (grid0.coords t) ((dats m 0 c).after 2 t) = _
  rw [after0_2, out_eq m c t h15]
  funext y
  show chain (totals (X m c) (Y m c)) t.val y = outArr (totals (X m c) (Y m c)) (((cfg0.win 2).blk t).view.emb y)
  unfold outArr
  have e0 : ((((cfg0.win 2).blk t).view.emb y) 0).val = win0_2.index t (0 : Fin 2) * 8 + 1 * (y 0).val := rfl
  have e1 : ((((cfg0.win 2).blk t).view.emb y) 1).val = win0_2.index t (1 : Fin 2) * 128 + 1 * (y 1).val := rfl
  obtain ⟨i0, i1⟩ := idx2 t
  have hy0 : (y 0).val < 8 := (y 0).isLt
  congr 1
  · rw [e0, i0]; omega
  · funext a
    apply Fin.ext
    match a with
    | ⟨0, _⟩ => show (y 0).val = ((((cfg0.win 2).blk t).view.emb y) 0).val % 8; rw [e0, i0]; omega
    | ⟨1, _⟩ => show (y 1).val = ((((cfg0.win 2).blk t).view.emb y) 1).val; rw [e1, i1]; omega

/-- An index is in point t's output block iff each coordinate is in the block's range. -/
theorem mem_blk (t : Fin cfg0.N) (i : S16x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v2).slice (win0_2.rect t)).set ↔ _
  rw [View.set_slice_whole, Rect.mem_set_unit]
  exact Iff.rfl

/-- Every entry of the 16 x 128 array is in the block some copying point writes: row r belongs to core r / 8. -/
theorem cover (i : S16x128.Idx) : ∃ t : Fin cfg0.N, (cfg0.win 2).flush t = true ∧ i ∈ ((cfg0.win 2).blk t).view.set := by
  have hi0 : (i 0).val < 16 := (i 0).isLt
  have hi1 : (i 1).val < 128 := (i 1).isLt
  have hN : cfg0.N = 32 := N_0
  have hlt : 16 * ((i 0).val / 8) + 15 < cfg0.N := by rw [hN]; omega
  obtain ⟨q0, q1⟩ := idx2 ⟨16 * ((i 0).val / 8) + 15, hlt⟩
  refine ⟨⟨16 * ((i 0).val / 8) + 15, hlt⟩, (flush0_2 _).mpr (by show (16 * ((i 0).val / 8) + 15) % 16 = 15; omega), ?_⟩
  rw [mem_blk]
  intro a
  match a with
  | ⟨0, _⟩ =>
    show win0_2.index ⟨16 * ((i 0).val / 8) + 15, hlt⟩ (0 : Fin 2) * 8 ≤ (i 0).val ∧ (i 0).val < win0_2.index ⟨16 * ((i 0).val / 8) + 15, hlt⟩ (0 : Fin 2) * 8 + 8
    rw [q0]; show (16 * ((i 0).val / 8) + 15) / 16 * 8 ≤ (i 0).val ∧ (i 0).val < (16 * ((i 0).val / 8) + 15) / 16 * 8 + 8; omega
  | ⟨1, _⟩ =>
    show win0_2.index ⟨16 * ((i 0).val / 8) + 15, hlt⟩ (1 : Fin 2) * 128 ≤ (i 1).val ∧ (i 1).val < win0_2.index ⟨16 * ((i 0).val / 8) + 15, hlt⟩ (1 : Fin 2) * 128 + 128
    rw [q1]; omega

/-- The output array after the region: the spec's 16 x 128 array. -/
theorem final (c : Dev nD) : (dats m 0 c).arrAt 2 cfg0.N = outArr (totals (X m c) (Y m c)) :=
  (dats m 0 c).arrAt_eq_of_cover 2 (outArr (totals (X m c) (Y m c))) (flushed_eq m c) cover

/-- The region finds the logits reshaped to 65536 x 512, -/
theorem X_eq (c : Dev nD) :
    X m c = shapeCast S65536x512 (m ((c : Thread nD τ).loc main_arg0)) shapeCasts_S64x4x256x512_S65536x512 := by
  show StableHlo.after hostOps0 (fun b => m (c, b)) (Proc.devRef .tc main_v0) = _
  after_results
  rfl

/-- and the targets likewise. -/
theorem Y_eq (c : Dev nD) :
    Y m c = shapeCast S65536x512 (m ((c : Thread nD τ).loc main_arg2)) shapeCasts_S64x4x256x512_S65536x512 := by
  show StableHlo.after hostOps0 (fun b => m (c, b)) (Proc.devRef .tc main_v1) = _
  after_results
  rfl

/-- The host's tail over a 16 x 128 array: its sum from the zero word, divided by the word 32768. -/
def tail (A : FVec Ideal S16x128 .f32) : FVec Ideal S_ .f32 :=
  Host.divf (F := Ideal) (Host.reduceAdd (F := Ideal) A (constant (F := Ideal) S_ .f32 0x00000000#32) reducesTo_S16x128_S_d0_1 h_S_)
    (constant (F := Ideal) S_ .f32 0x47000000#32)

/-- The program's result: the tail of the spec's 16 x 128 array. -/
theorem result_eq (c : Dev nD) :
    Pipeline.afterTail₀ cfgs (dats m) 0 (V0 m) [hostOps1] c main_v4 = tail (outArr (totals (X m c) (Y m c))) := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.tc.devRef main_v2)
      = outArr (totals (X m c) (Y m c)) :=
    (Pipeline.withArrays_arr spec0 launch0.win.arr_inj c _ _ 2).trans (final m c)
  rw [e]
  rfl

/-- The tail, from the sum of the array's entries: the host's sum over every axis is the initial value plus the sum of
    all entries. -/
theorem tail_eq (A : FVec Ideal S16x128 .f32) : tail A = result (∑ i, A i) := by
  funext i
  have e : Host.reduceAdd (F := Ideal) A (constant (F := Ideal) S_ .f32 0x00000000#32) reducesTo_S16x128_S_d0_1 h_S_ i
      = z + ∑ i', A i' := by
    simp only [Host.reduceAdd, Ideal.hostReduceAdd_def]
    exact Ideal.hostReduceAdd_total reducesTo_S16x128_S_d0_1 (fun b => b.elim0) A _ i
  show FloatOps.hostDivf (Host.reduceAdd (F := Ideal) A (constant (F := Ideal) S_ .f32 0x00000000#32) reducesTo_S16x128_S_d0_1 h_S_ i) _ = _
  rw [e]
  rfl

/-- The idealized kernel's run, read: every weakly fair execution ends with the result at the tail of the spec's
    16 x 128 array of the two reshaped arguments, and the four arguments as they were. -/
theorem run : θ_run defs (onTc (τ := τ) (main (F := Ideal))) ⟨m, fun _ => 0, ρ⟩ fun r => ∀ c : Dev nD,
      r.2.mem ((c.tc : Thread nD τ).loc main_v4) = tail (outArr (totals (X m c) (Y m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Final

end
-- ==== Proof.Bridge.lean ====
/-
  The reference, read as the spec.

  The reference applies the same elementwise loss to the whole 64 x 4 x 256 x 512 arguments (its softplus spelt with the
  host's unordered comparison and a negation), sums every entry from the zero word and divides by the word 32768.
  A reshape only renames indices, so the sum over the four-axis array is the sum over its 65536 x 512 re-laying.
-/
import proofs.«110235_j23536420782513_2_alg».proof.Proof.Gen.ReferenceIdeal.Read
import proofs.«110235_j23536420782513_2_alg».proof.Proof.Spec
import Idealize.ShloMosaic.PureOps.Ideal.Laws

noncomputable section

open scoped BigOperators
open Idealize.ShloMosaic

namespace Cert.ReferenceIdeal.Bridge

open Cert.ReferenceIdeal Cert.ReferenceIdeal.Read Cert.BceSpec

/-- The reference's element is the loss of the two arguments' elements. -/
theorem elt_ref (x0 x2 : FVec Ideal S64x4x256x512 .f32) (j : S64x4x256x512.Idx) :
    val_main_v2 (F := Ideal) x0 x2 j = g (x0 j) (x2 j) := g_host (x0 j) (x2 j)

/-- Its sum over all entries is the sum over the re-laid arrays. -/
theorem sum_ref (x0 x2 : FVec Ideal S64x4x256x512 .f32) (h : S64x4x256x512.ShapeCasts ⟨2, ![65536, 512]⟩) :
    ∑ j, val_main_v2 (F := Ideal) x0 x2 j
      = ∑ J : IdxArr, g (shapeCast ⟨2, ![65536, 512]⟩ x0 h J) (shapeCast ⟨2, ![65536, 512]⟩ x2 h J) := by
  rw [Finset.sum_congr rfl fun j _ => elt_ref x0 x2 j]
  exact (Equiv.sum_comp (Shape.reshapeEquiv h) (fun j => g (x0 j) (x2 j))).symm

/-- The reference's result is the spec's result of that sum. -/
theorem ref_eq (x0 x2 : FVec Ideal S64x4x256x512 .f32) (h : S64x4x256x512.ShapeCasts ⟨2, ![65536, 512]⟩) :
    val_main_v4 (F := Ideal) x0 x2
      = result (∑ J : IdxArr, g (shapeCast ⟨2, ![65536, 512]⟩ x0 h J) (shapeCast ⟨2, ![65536, 512]⟩ x2 h J)) := by
  funext i
  rw [val_main_v4_apply, val_main_v3_apply, sum_ref x0 x2 h]
  rfl

end Cert.ReferenceIdeal.Bridge

end
-- ==== Proof.lean ====
/-
  A binary-cross-entropy-on-logits loss, reduced to one number: the kernel against its jnp reference, over the
  extended reals.

  Both programs compute   ( 0 + Σ over all 64·4·256·512 elements of  softplus(x) − y·x ) / 32768,   x the first
  argument (logits), y the third (targets); the second and fourth arguments are read by neither.

  The reference does it in one piece.  The kernel reshapes x and y to 65536 x 512, walks 32 blocks of 2048 rows on a
  2 x 16 grid, and per block forms the loss, sums the 512 lanes, then the 2048 rows, and adds that total into entry
  (0, 0) of an 8 x 128 accumulator (zeros elsewhere); the accumulator is zeroed at steps 0 and 16 and copied to the
  output after steps 15 and 31; the host sums the resulting 16 x 128 array and divides by 32768.

  Why they agree.  (1) Element by element the two spellings of the loss are one extended real: the guard "x − 0 ≠ x − 0"
  is the same test ordered or unordered, and 0 − |x| = −|x|.  (2) The kernel's grouping of the sum — lanes, rows, the
  accumulator's 16 steps, the two cores, the final host sum — is a regrouping of one finite sum, and + on the extended
  reals is commutative and associative with 0 neutral.  (3) A reshape renames indices.  (4) The last step, a host
  division by the same word, is the same operation on both sides.  Nothing uses that the inputs are finite.

  Modules: Spec (the functions and the regrouping identity), Cases (what each control case of the body leaves),
  Payload (the body's arithmetic at an entry), Running (the accumulator across the grid, by induction), Final (the output
  array, the host tail, the kernel's run read), Bridge (the reference read as the spec).  The idealization rewrote
  nothing, so the word-level kernel relates to it trivially; the three termination-and-unchanged-arguments claims are
  the generated frames, the reference's being its generated run with the result dropped.
-/
import proofs.«110235_j23536420782513_2_alg».proof.Defs
import proofs.«110235_j23536420782513_2_alg».proof.Proof.Gen.Kernel
import proofs.«110235_j23536420782513_2_alg».proof.Proof.Gen.Kernel.Skeleton
import proofs.«110235_j23536420782513_2_alg».proof.Proof.Gen.Kernel.Launch
import proofs.«110235_j23536420782513_2_alg».proof.Proof.Gen.Kernel.Points
import proofs.«110235_j23536420782513_2_alg».proof.Proof.Gen.Kernel.Frame
import proofs.«110235_j23536420782513_2_alg».proof.Proof.Gen.KernelIdeal
import proofs.«110235_j23536420782513_2_alg».proof.Proof.Gen.KernelIdeal.Skeleton
import proofs.«110235_j23536420782513_2_alg».proof.Proof.Gen.KernelIdeal.Launch
import proofs.«110235_j23536420782513_2_alg».proof.Proof.Gen.KernelIdeal.Points
import proofs.«110235_j23536420782513_2_alg».proof.Proof.Gen.KernelIdeal.Frame
import proofs.«110235_j23536420782513_2_alg».proof.Proof.Gen.ReferenceIdeal
import proofs.«110235_j23536420782513_2_alg».proof.Proof.Gen.Pre_finite_inputs
import proofs.«110235_j23536420782513_2_alg».proof.Proof.Gen.ReferenceIdeal.Run
import proofs.«110235_j23536420782513_2_alg».proof.Proof.Gen.ReferenceIdeal.Read
import proofs.«110235_j23536420782513_2_alg».proof.Proof.Final
import proofs.«110235_j23536420782513_2_alg».proof.Proof.Bridge
import Idealize.ShloMosaic.Adequacy
import Idealize.ShloMosaic.Init

noncomputable section

namespace Cert.Proof

open Idealize.ShloMosaic Idealize.SL.Sem

/-- The word-level kernel terminates, faults nowhere and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end at the same extended real: the kernel at the host tail
    of the 16 x 128 array of accumulated block totals, the reference at the result of its one sum; the array's
    entries add up to that sum over the reshaped arguments, and the reshape renames indices. -/
theorem algebraic : Cert.algebraic_KernelIdeal_ReferenceIdeal := by
  intro m ρ m' ρ' _ hagree
  refine ⟨fun c => Cert.KernelIdeal.Final.tail (Cert.BceSpec.outArr
      (Cert.BceSpec.totals (Cert.KernelIdeal.Running.X m c) (Cert.KernelIdeal.Running.Y m c))),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  beta_reduce
  rw [Cert.ReferenceIdeal.Read.val_main_v4_eq,
    Cert.ReferenceIdeal.Bridge.ref_eq _ _ Cert.KernelIdeal.Gen.shapeCasts_S64x4x256x512_S65536x512,
    (hagree c).1, (hagree c).2.2.1,
    Cert.KernelIdeal.Final.tail_eq, Cert.BceSpec.sum_outArr_totals, Cert.KernelIdeal.Final.X_eq, Cert.KernelIdeal.Final.Y_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
